-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128 .f32) (main_arg7 : FVec F S128x2 .f32) (main_arg8 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x600000 32) (main_arg2 : IVec S100000 32) (main_arg3 : FVec F S128x128 .f32) (main_arg4 : FVec F S128 .f32) (main_arg5 : FVec F S128x128 .f32) (main_arg6 : FVec F S128 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S5000x128 : Shape := ⟨2, ![5000, 128]⟩
abbrev S700000x128 : Shape := ⟨2, ![700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 118
  | .vmem => 13
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S700000, .f32⟩
  | .hbm, ⟨18, _⟩ => ⟨S_, .f32⟩
  | .hbm, ⟨19, _⟩ => ⟨S100000, .f32⟩
  | .hbm, ⟨20, _⟩ => ⟨S700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000, .f32⟩
  | .hbm, ⟨51, _⟩ => ⟨S700000, .f32⟩
  | .hbm, ⟨52, _⟩ => ⟨S100000x128, .f32⟩
  | .hbm, ⟨53, _⟩ => ⟨S_, .i32⟩
  | .hbm, ⟨54, _⟩ => ⟨S700000, .i32⟩
  | .hbm, ⟨55, _⟩ => ⟨S700000, .i1⟩
  | .hbm, ⟨56, _⟩ => ⟨S_, .i32⟩
  | .hbm, ⟨57, _⟩ => ⟨S700000, .i32⟩
  | .hbm, ⟨58, _⟩ => ⟨S700000, .i32⟩
  | .hbm, ⟨59, _⟩ => ⟨S700000, .i32⟩
  | .hbm, ⟨60, _⟩ => ⟨S700000x1, .i32⟩
  | .hbm, ⟨61, _⟩ => ⟨S700000x128, .f32⟩
  | .hbm, ⟨62, _⟩ => ⟨S700000x1, .f32⟩
  | .hbm, ⟨63, _⟩ => ⟨S700000x128, .f32⟩
  | .hbm, ⟨64, _⟩ => ⟨S700000x128, .f32⟩
  | .hbm, ⟨65, _⟩ => ⟨S_, .f32⟩
  | .hbm, ⟨66, _⟩ => ⟨S100000x128, .f32⟩
  | .hbm, ⟨67, _⟩ => ⟨S700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S700000, .i32⟩
  | .hbm, ⟨78, _⟩ => ⟨S700000, .i1⟩
  | .hbm, ⟨79, _⟩ => ⟨S_, .i32⟩
  | .hbm, ⟨80, _⟩ => ⟨S700000, .i32⟩
  | .hbm, ⟨81, _⟩ => ⟨S700000, .i32⟩
  | .hbm, ⟨82, _⟩ => ⟨S700000, .i32⟩
  | .hbm, ⟨83, _⟩ => ⟨S700000x1, .i32⟩
  | .hbm, ⟨84, _⟩ => ⟨S700000x128, .f32⟩
  | .hbm, ⟨85, _⟩ => ⟨S700000x1, .f32⟩
  | .hbm, ⟨86, _⟩ => ⟨S700000x128, .f32⟩
  | .hbm, ⟨87, _⟩ => ⟨S700000x128, .f32⟩
  | .hbm, ⟨88, _⟩ => ⟨S_, .f32⟩
  | .hbm, ⟨89, _⟩ => ⟨S100000x128, .f32⟩
  | .hbm, ⟨90, _⟩ => ⟨S700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S512x128, .f32⟩
  | .hbm, ⟨100, _⟩ => ⟨S100000x1, .i32⟩
  | .hbm, ⟨101, _⟩ => ⟨S512x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S512, .f32⟩
  | .hbm, ⟨106, _⟩ => ⟨S100000x1, .i32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x128, .f32⟩
  | .hbm, ⟨113, _⟩ => ⟨S512x128, .f32⟩
  | .hbm, ⟨114, _⟩ => ⟨S512x2, .f32⟩
  | .hbm, ⟨115, _⟩ => ⟨S1x2, .f32⟩
  | .hbm, ⟨116, _⟩ => ⟨S512x2, .f32⟩
  | .hbm, ⟨117, _⟩ => ⟨S512x2, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S512x128, .f32⟩
  | .local _ .vmem, ⟨11, _⟩ => ⟨S128x2, .f32⟩
  | .local _ .vmem, ⟨12, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S512x2_S512x2_0_0 : ∀ a, (![0, 0] : Fin 2 → Nat) a + S512x2.size a ≤ S512x2.size a
  h_S512x2 : 0 < S512x2.numel
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S512x2.size a ≤ S512x2.size a
  hwx2_2 : ∀ i : grid2.Coords, EltTy.bits .f32 = 32 ∨ (Rect.block (s := S512x2) S512x2.size (cc2_transform_2 i) (hinb2_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v79) S512x128.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S512x2.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x2, .f32⟩
  | .hbm, ⟨8, _⟩ => ⟨S2, .f32⟩
  | .hbm, ⟨9, _⟩ => ⟨S100000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S1x600000, .i32⟩
  | .hbm, ⟨14, _⟩ => ⟨S600000, .i32⟩
  | .hbm, ⟨15, _⟩ => ⟨S700000, .i32⟩
  | .hbm, ⟨16, _⟩ => ⟨S_, .f32⟩
  | .hbm, ⟨17, _⟩ => ⟨S700000, .f32⟩
  | .hbm, ⟨18, _⟩ => ⟨S_, .f32⟩
  | .hbm, ⟨19, _⟩ => ⟨S100000, .f32⟩
  | .hbm, ⟨20, _⟩ => ⟨S700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S700000, .i32⟩
  | .hbm, ⟨35, _⟩ => ⟨S700000, .i1⟩
  | .hbm, ⟨36, _⟩ => ⟨S_, .i32⟩
  | .hbm, ⟨37, _⟩ => ⟨S700000, .i32⟩
  | .hbm, ⟨38, _⟩ => ⟨S700000, .i32⟩
  | .hbm, ⟨39, _⟩ => ⟨S700000, .i32⟩
  | .hbm, ⟨40, _⟩ => ⟨S700000x1, .i32⟩
  | .hbm, ⟨41, _⟩ => ⟨S700000, .f32⟩
  | .hbm, ⟨42, _⟩ => ⟨S_, .i32⟩
  | .hbm, ⟨43, _⟩ => ⟨S700000, .i32⟩
  | .hbm, ⟨44, _⟩ => ⟨S700000, .i1⟩
  | .hbm, ⟨45, _⟩ => ⟨S_, .i32⟩
  | .hbm, ⟨46, _⟩ => ⟨S700000, .i32⟩
  | .hbm, ⟨47, _⟩ => ⟨S700000, .i32⟩
  | .hbm, ⟨48, _⟩ => ⟨S700000, .i32⟩
  | .hbm, ⟨49, _⟩ => ⟨S700000x1, .i32⟩
  | .hbm, ⟨50, _⟩ => ⟨S700000, .f32⟩
  | .hbm, ⟨51, _⟩ => ⟨S700000, .f32⟩
  | .hbm, ⟨52, _⟩ => ⟨S100000x128, .f32⟩
  | .hbm, ⟨53, _⟩ => ⟨S_, .i32⟩
  | .hbm, ⟨54, _⟩ => ⟨S700000, .i32⟩
  | .hbm, ⟨55, _⟩ => ⟨S700000, .i1⟩
  | .hbm, ⟨56, _⟩ => ⟨S_, .i32⟩
  | .hbm, ⟨57, _⟩ => ⟨S700000, .i32⟩
  | .hbm, ⟨58, _⟩ => ⟨S700000, .i32⟩
  | .hbm, ⟨59, _⟩ => ⟨S700000, .i32⟩
  | .hbm, ⟨60, _⟩ => ⟨S700000x1, .i32⟩
  | .hbm, ⟨61, _⟩ => ⟨S700000x128, .f32⟩
  | .hbm, ⟨62, _⟩ => ⟨S700000x1, .f32⟩
  | .hbm, ⟨63, _⟩ => ⟨S700000x128, .f32⟩
  | .hbm, ⟨64, _⟩ => ⟨S700000x128, .f32⟩
  | .hbm, ⟨65, _⟩ => ⟨S_, .f32⟩
  | .hbm, ⟨66, _⟩ => ⟨S100000x128, .f32⟩
  | .hbm, ⟨67, _⟩ => ⟨S700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S700000, .i32⟩
  | .hbm, ⟨78, _⟩ => ⟨S700000, .i1⟩
  | .hbm, ⟨79, _⟩ => ⟨S_, .i32⟩
  | .hbm, ⟨80, _⟩ => ⟨S700000, .i32⟩
  | .hbm, ⟨81, _⟩ => ⟨S700000, .i32⟩
  | .hbm, ⟨82, _⟩ => ⟨S700000, .i32⟩
  | .hbm, ⟨83, _⟩ => ⟨S700000x1, .i32⟩
  | .hbm, ⟨84, _⟩ => ⟨S700000x128, .f32⟩
  | .hbm, ⟨85, _⟩ => ⟨S700000x1, .f32⟩
  | .hbm, ⟨86, _⟩ => ⟨S700000x128, .f32⟩
  | .hbm, ⟨87, _⟩ => ⟨S700000x128, .f32⟩
  | .hbm, ⟨88, _⟩ => ⟨S_, .f32⟩
  | .hbm, ⟨89, _⟩ => ⟨S100000x128, .f32⟩
  | .hbm, ⟨90, _⟩ => ⟨S700000x1, .i32⟩
  | .hbm, ⟨91, _⟩ => ⟨S100000x128, .f32⟩
  | .hbm, ⟨92, _⟩ => ⟨S1x128, .f32⟩
  | .hbm, ⟨93, _⟩ => ⟨S100000x128, .f32⟩
  | .hbm, ⟨94, _⟩ => ⟨S100000x128, .f32⟩
  | .hbm, ⟨95, _⟩ => ⟨S_, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S512x128, .f32⟩
  | .hbm, ⟨100, _⟩ => ⟨S100000x1, .i32⟩
  | .hbm, ⟨101, _⟩ => ⟨S512x128, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S512, .f32⟩
  | .hbm, ⟨106, _⟩ => ⟨S100000x1, .i32⟩
  | .hbm, ⟨107, _⟩ => ⟨S512, .f32⟩
  | .hbm, ⟨108, _⟩ => ⟨S_, .f32⟩
  | .hbm, ⟨109, _⟩ => ⟨S512, .f32⟩
  | .hbm, ⟨110, _⟩ => ⟨S512, .f32⟩
  | .hbm, ⟨111, _⟩ => ⟨S512x1, .f32⟩
  | .hbm, ⟨112, _⟩ => ⟨S512x128, .f32⟩
  | .hbm, ⟨113, _⟩ => ⟨S512x128, .f32⟩
  | .hbm, ⟨114, _⟩ => ⟨S512x2, .f32⟩
  | .hbm, ⟨115, _⟩ => ⟨S1x2, .f32⟩
  | .hbm, ⟨116, _⟩ => ⟨S512x2, .f32⟩
  | .hbm, ⟨117, _⟩ => ⟨S512x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_c_6 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_16 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KernelRun.lean ====
/-
  The kernel program's run with its result named. The program is twelve segments — nine stretches of host operations
  and the three linear-layer regions —, and the contents of every buffer at each segment boundary are a fold from the
  launch memory (the generated frame module's `W0` … `W12`). Every weakly fair execution terminates with every unscoped
  buffer at the last boundary's contents; read at the result buffer that is `W12` at `main_v83`, and read at the
  arguments it is the launch memory.
-/
import proofs.«169838_j24103356465666_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v83) = W12 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v83 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Result

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.Dots.lean ====
/-
  The four matrix-product records of this certificate are plain rows-by-columns products: the block product of a
  linear layer's grid point ([5000,128] x [128,128]), the head's block product ([512,128] x [128,2]), and the
  reference's two whole products ([100000,128] x [128,128] and [512,128] x [128,2]). Each contracts axis 1 of its
  left operand with axis 0 of its right operand, with no batch axis, so an entry (r, c) is the sum over k of
  left (r, k) times right (k, c).
-/
import proofs.«169838_j24103356465666_1_alg».proof.Proof.Gen.KernelIdeal
import proofs.«169838_j24103356465666_1_alg».proof.Proof.Gen.ReferenceIdeal
import proofs.«169838_j24103356465666_1_alg».proof.Proof.LibDot

namespace Cert.Products

open Idealize.ShloMosaic

/-- The record's operand indices at an output entry (r, c) and a contraction index k are (r, k) and (k, c). -/
theorem plain_rows_block : Cert.LibDot.Plain Cert.KernelIdeal.dot_S5000x128_S128x128_S5000x128_1_0_0_1_n_n where
  hrank := rfl
  hs := rfl
  hl0 := fun j k => by
    unfold DotDims.lhsIdx
    rw [dif_neg (show ¬(0 : Fin Cert.KernelIdeal.S5000x128.rank) ∈ Cert.KernelIdeal.dot_S5000x128_S128x128_S5000x128_1_0_0_1_n_n.lhsBatch by decide),
      dif_pos (show (0 : Fin Cert.KernelIdeal.S5000x128.rank) ∈ Cert.KernelIdeal.dot_S5000x128_S128x128_S5000x128_1_0_0_1_n_n.lhsNonContracting by decide)]
    rfl
  hl1 := fun j k => Cert.KernelIdeal.dot_S5000x128_S128x128_S5000x128_1_0_0_1_n_n.lhsIdx_val_of_single rfl j k
  hr0 := fun j k => Cert.KernelIdeal.dot_S5000x128_S128x128_S5000x128_1_0_0_1_n_n.rhsIdx_val_of_single rfl j k
  hr1 := fun j k => by
    unfold DotDims.rhsIdx
    rw [dif_neg (show ¬(1 : Fin Cert.KernelIdeal.S128x128.rank) ∈ Cert.KernelIdeal.dot_S5000x128_S128x128_S5000x128_1_0_0_1_n_n.rhsBatch by decide),
      dif_pos (show (1 : Fin Cert.KernelIdeal.S128x128.rank) ∈ Cert.KernelIdeal.dot_S5000x128_S128x128_S5000x128_1_0_0_1_n_n.rhsNonContracting by decide)]
    rfl

/-- The record's operand indices at an output entry (r, c) and a contraction index k are (r, k) and (k, c). -/
theorem plain_head_block : Cert.LibDot.Plain Cert.KernelIdeal.dot_S512x128_S128x2_S512x2_1_0_0_1_n_n where
  hrank := rfl
  hs := rfl
  hl0 := fun j k => by
    unfold DotDims.lhsIdx
    rw [dif_neg (show ¬(0 : Fin Cert.KernelIdeal.S512x128.rank) ∈ Cert.KernelIdeal.dot_S512x128_S128x2_S512x2_1_0_0_1_n_n.lhsBatch by decide),
      dif_pos (show (0 : Fin Cert.KernelIdeal.S512x128.rank) ∈ Cert.KernelIdeal.dot_S512x128_S128x2_S512x2_1_0_0_1_n_n.lhsNonContracting by decide)]
    rfl
  hl1 := fun j k => Cert.KernelIdeal.dot_S512x128_S128x2_S512x2_1_0_0_1_n_n.lhsIdx_val_of_single rfl j k
  hr0 := fun j k => Cert.KernelIdeal.dot_S512x128_S128x2_S512x2_1_0_0_1_n_n.rhsIdx_val_of_single rfl j k
  hr1 := fun j k => by
    unfold DotDims.rhsIdx
    rw [dif_neg (show ¬(1 : Fin Cert.KernelIdeal.S128x2.rank) ∈ Cert.KernelIdeal.dot_S512x128_S128x2_S512x2_1_0_0_1_n_n.rhsBatch by decide),
      dif_pos (show (1 : Fin Cert.KernelIdeal.S128x2.rank) ∈ Cert.KernelIdeal.dot_S512x128_S128x2_S512x2_1_0_0_1_n_n.rhsNonContracting by decide)]
    rfl

/-- The record's operand indices at an output entry (r, c) and a contraction index k are (r, k) and (k, c). -/
theorem plain_rows_whole : Cert.LibDot.Plain Cert.ReferenceIdeal.dot_S100000x128_S128x128_S100000x128_1_0_0_1_n_n where
  hrank := rfl
  hs := rfl
  hl0 := fun j k => by
    unfold DotDims.lhsIdx
    rw [dif_neg (show ¬(0 : Fin Cert.ReferenceIdeal.S100000x128.rank) ∈ Cert.ReferenceIdeal.dot_S100000x128_S128x128_S100000x128_1_0_0_1_n_n.lhsBatch by decide),
      dif_pos (show (0 : Fin Cert.ReferenceIdeal.S100000x128.rank) ∈ Cert.ReferenceIdeal.dot_S100000x128_S128x128_S100000x128_1_0_0_1_n_n.lhsNonContracting by decide)]
    rfl
  hl1 := fun j k => Cert.ReferenceIdeal.dot_S100000x128_S128x128_S100000x128_1_0_0_1_n_n.lhsIdx_val_of_single rfl j k
  hr0 := fun j k => Cert.ReferenceIdeal.dot_S100000x128_S128x128_S100000x128_1_0_0_1_n_n.rhsIdx_val_of_single rfl j k
  hr1 := fun j k => by
    unfold DotDims.rhsIdx
    rw [dif_neg (show ¬(1 : Fin Cert.ReferenceIdeal.S128x128.rank) ∈ Cert.ReferenceIdeal.dot_S100000x128_S128x128_S100000x128_1_0_0_1_n_n.rhsBatch by decide),
      dif_pos (show (1 : Fin Cert.ReferenceIdeal.S128x128.rank) ∈ Cert.ReferenceIdeal.dot_S100000x128_S128x128_S100000x128_1_0_0_1_n_n.rhsNonContracting by decide)]
    rfl

/-- The record's operand indices at an output entry (r, c) and a contraction index k are (r, k) and (k, c). -/
theorem plain_head_whole : Cert.LibDot.Plain Cert.ReferenceIdeal.dot_S512x128_S128x2_S512x2_1_0_0_1_n_n where
  hrank := rfl
  hs := rfl
  hl0 := fun j k => by
    unfold DotDims.lhsIdx
    rw [dif_neg (show ¬(0 : Fin Cert.ReferenceIdeal.S512x128.rank) ∈ Cert.ReferenceIdeal.dot_S512x128_S128x2_S512x2_1_0_0_1_n_n.lhsBatch by decide),
      dif_pos (show (0 : Fin Cert.ReferenceIdeal.S512x128.rank) ∈ Cert.ReferenceIdeal.dot_S512x128_S128x2_S512x2_1_0_0_1_n_n.lhsNonContracting by decide)]
    rfl
  hl1 := fun j k => Cert.ReferenceIdeal.dot_S512x128_S128x2_S512x2_1_0_0_1_n_n.lhsIdx_val_of_single rfl j k
  hr0 := fun j k => Cert.ReferenceIdeal.dot_S512x128_S128x2_S512x2_1_0_0_1_n_n.rhsIdx_val_of_single rfl j k
  hr1 := fun j k => by
    unfold DotDims.rhsIdx
    rw [dif_neg (show ¬(1 : Fin Cert.ReferenceIdeal.S128x2.rank) ∈ Cert.ReferenceIdeal.dot_S512x128_S128x2_S512x2_1_0_0_1_n_n.rhsBatch by decide),
      dif_pos (show (1 : Fin Cert.ReferenceIdeal.S128x2.rank) ∈ Cert.ReferenceIdeal.dot_S512x128_S128x2_S512x2_1_0_0_1_n_n.rhsNonContracting by decide)]
    rfl

end Cert.Products
-- ==== Proof.RowsProduct.lean ====
/-
  A block of rows of a matrix product is the product of the block of rows. With X of shape [100000,128], W of shape
  [128,128], and x0 the rows p ↦ X (r, ·) of one 5000-row block, entry (p, q) of x0 · W (the grid point's product on the
  matrix unit, its operands first rounded to bf16 — no change on the extended reals — and accumulated from zero) is
  entry (r, q) of the whole product X · W: both are the sum over k of X (r, k) · W (k, q). The same for the head's one
  block, which is the whole [512,128] x [128,2] product.
-/
import proofs.«169838_j24103356465666_1_alg».proof.Proof.Dots
import Idealize.ShloMosaic.Lib.ValueIdx
import Idealize.ShloMosaic.PureOps.Ideal.Laws

noncomputable section

namespace Cert.Products

open Idealize.ShloMosaic Idealize.ShloMosaic.ValueIdx

/-- Entry (p, q) of a row block's product is entry (r, q) of the whole product when row p of the block is row r of
    the whole left operand and the right operands agree. -/
theorem rows_entry (X : FVec Ideal Cert.KernelIdeal.S100000x128 .f32) (W x1 : FVec Ideal Cert.KernelIdeal.S128x128 .f32)
    (x0 : FVec Ideal Cert.KernelIdeal.S5000x128 .f32) (p : Fin 5000) (q : Fin 128) (r : Fin 100000)
    (h0 : ∀ k : Fin 128, x0 (ix2 p k) = X (ix2 r k)) (h1 : x1 = W) (hb : FTy.bits .bf16 < FTy.bits .f32) :
    matmul Cert.KernelIdeal.dot_S5000x128_S128x128_S5000x128_1_0_0_1_n_n none
        (truncf .bf16 x0 hb) (truncf .bf16 x1 hb)
        (constant Cert.KernelIdeal.S5000x128 .f32 0x00000000#32) (ix2 p q)
      = Host.dotGeneral (F := Ideal) Cert.ReferenceIdeal.dot_S100000x128_S128x128_S100000x128_1_0_0_1_n_n none X W (ix2 r q) := by
  subst h1
  refine (Cert.LibDot.matmul_ix2 plain_rows_block none _ _ p q).trans ?_
  refine Eq.trans ?_ (Cert.LibDot.dotGeneral_ix2 plain_rows_whole none X x1 r q).symm
  exact Finset.sum_congr rfl fun k _ => congrArg (· * x1 (ix2 k q)) (h0 k)

/-- The head's one block is the whole product. -/
theorem head_entry (X : FVec Ideal Cert.KernelIdeal.S512x128 .f32) (W : FVec Ideal Cert.KernelIdeal.S128x2 .f32)
    (p : Fin 512) (q : Fin 2) (hb : FTy.bits .bf16 < FTy.bits .f32) :
    matmul Cert.KernelIdeal.dot_S512x128_S128x2_S512x2_1_0_0_1_n_n none
        (truncf .bf16 X hb) (truncf .bf16 W hb)
        (constant Cert.KernelIdeal.S512x2 .f32 0x00000000#32) (ix2 p q)
      = Host.dotGeneral (F := Ideal) Cert.ReferenceIdeal.dot_S512x128_S128x2_S512x2_1_0_0_1_n_n none X W (ix2 p q) :=
  (Cert.LibDot.matmul_ix2 plain_head_block none _ _ p q).trans
    (Cert.LibDot.dotGeneral_ix2 plain_head_whole none X W p q).symm

end Cert.Products

end
-- ==== Proof.Linear1.lean ====
/-
  The first linear layer's pallas_call leaves the whole product in its output array. Grid point t of 20 loads rows
  5000·t … 5000·t + 4999 of the left operand and the whole [128,128] weight, and stores their product as rows
  5000·t … 5000·t + 4999 of the output; row p of that block is row 5000·t + p of the left operand, so the block is the
  same rows of the whole product (`Cert.Products.rows_entry`), and the 20 blocks tile the output's 100000 rows.
  Stated for any contents `V` of the buffers at the region's entry; the two input arrays are not written.
-/
import proofs.«169838_j24103356465666_1_alg».proof.Proof.Gen.KernelIdeal.Frame
import proofs.«169838_j24103356465666_1_alg».proof.Proof.RowsProduct
import Idealize.ShloMosaic.Lib.Pipeline.Value

set_option maxRecDepth 16384

noncomputable section

namespace Cert.KernelIdeal.Linear1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The whole product the region computes, of the two input arrays as the region finds them. -/
abbrev product (c : Dev nD) : FVec Ideal S100000x128 .f32 :=
  Host.dotGeneral (F := Ideal) (φ₁ := .f32) (φ₂ := .f32) Cert.ReferenceIdeal.dot_S100000x128_S128x128_S100000x128_1_0_0_1_n_n none (V c main_arg0) (V c main_arg3)

theorem zero_offsets : (![0, 0] : Fin 2 → Nat) = fun _ => 0 := funext fun a => by fin_cases a <;> rfl

/-- The body's stored value at an entry of its block is the whole product's entry, when the block's row is the whole
    left operand's row and the weights agree. -/
theorem payload_at (X : FVec Ideal S100000x128 .f32) (W : FVec Ideal S128x128 .f32) (x0 : Vec Ideal S5000x128 .f32)
    (x1 : Vec Ideal S128x128 .f32) (y : S5000x128.Idx) (i : S100000x128.Idx)
    (h0 : ∀ k : Fin 128, x0 (ix2 (y 0) k) = X (ix2 (i 0) k)) (h1 : x1 = W) (hq : (i 1).val = (y 1).val) :
    k0_pay1 x0 x1 y
      = Host.dotGeneral (F := Ideal) Cert.ReferenceIdeal.dot_S100000x128_S128x128_S100000x128_1_0_0_1_n_n none X W i := by
  have hy : y = ix2 (y 0) (y 1) := eq_ix2 y
  have hi : i = ix2 (i 0) (y 1) := (eq_ix2 i).trans (congrArg (ix2 (i 0)) (Fin.ext hq))
  rw [hy, hi]
  unfold k0_pay1
  exact Cert.Products.rows_entry X W x1 x0 (y 0) (y 1) (i 0) h0 h1 _

/-- The printed index maps over the grid: windows 0 and 2 move down their arrays one block per point, the weight's
    window stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point t writes back is block t of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  funext y
  show k0_pay1 (iblk0 V c 0 t) (iblk0 V c 1 t) y = product V c (((cfg0.win 2).blk t).view.emb y)
  refine payload_at (V c main_arg0) (V c main_arg3) (iblk0 V c 0 t) (iblk0 V c 1 t) y (((cfg0.win 2).blk t).view.emb y) ?_ ?_ ?_
  · intro k
    show V c main_arg0 (((cfg0.win 0).blk t).view.emb (ix2 (y 0) k)) = V c main_arg0 (ix2 ((((cfg0.win 2).blk t).view.emb y) 0) k)
    refine congrArg (V c main_arg0) (funext fun a => Fin.ext ?_)
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  · funext z
    show V c main_arg3 (((cfg0.win 1).blk t).view.emb z) = V c main_arg3 z
    refine congrArg (V c main_arg3) (funext fun a => Fin.ext ?_)
    match a with
    | ⟨0, _⟩ => show win0_1.index t (0 : Fin 2) * 128 + 1 * (z 0).val = (z 0).val; omega
    | ⟨1, _⟩ => show win0_1.index t (1 : Fin 2) * 128 + 1 * (z 1).val = (z 1).val; omega
  · show win0_2.index t (1 : Fin 2) * 128 + 1 * (y 1).val = (y 1).val; omega

/-- An index of the output array is in point t's block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the output is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < grid0.N := by rw [hN]; omega
  obtain ⟨e0, e1, e2, e3, e4, e5⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    rw [e5]; omega

/-- After the region its output array holds the whole product. -/
theorem output_eq (c : Dev nD) : (dat0 V c).arrAt 2 cfg0.N = product V c :=
  (dat0 V c).arrAt_eq_of_cover 2 (product V c) (fun t _ => flushed_eq V c t) cover

/-- After the region its input arrays hold what they held: an input window never writes back. -/
theorem input0_eq (c : Dev nD) : (dat0 V c).arrAt 0 cfg0.N = V c main_arg0 :=
  ((dat0 V c).arrAt_in 0 rfl _).trans (A_eq0 V c 0)
theorem input1_eq (c : Dev nD) : (dat0 V c).arrAt 1 cfg0.N = V c main_arg3 :=
  ((dat0 V c).arrAt_in 1 rfl _).trans (A_eq0 V c 1)

end Cert.KernelIdeal.Linear1

end
-- ==== Proof.Linear2.lean ====
/-
  The second linear layer's pallas_call leaves the whole product in its output array. Grid point t of 20 loads rows
  5000·t … 5000·t + 4999 of the left operand and the whole [128,128] weight, and stores their product as rows
  5000·t … 5000·t + 4999 of the output; row p of that block is row 5000·t + p of the left operand, so the block is the
  same rows of the whole product (`Cert.Products.rows_entry`; the body's reshape of its block to the same shape changes nothing), and the 20 blocks tile the output's 100000 rows.
  Stated for any contents `V` of the buffers at the region's entry; the two input arrays are not written.
-/
import proofs.«169838_j24103356465666_1_alg».proof.Proof.Gen.KernelIdeal.Frame
import proofs.«169838_j24103356465666_1_alg».proof.Proof.RowsProduct
import Idealize.ShloMosaic.Lib.Pipeline.Value

set_option maxRecDepth 16384

noncomputable section

namespace Cert.KernelIdeal.Linear2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The whole product the region computes, of the two input arrays as the region finds them. -/
abbrev product (c : Dev nD) : FVec Ideal S100000x128 .f32 :=
  Host.dotGeneral (F := Ideal) (φ₁ := .f32) (φ₂ := .f32) Cert.ReferenceIdeal.dot_S100000x128_S128x128_S100000x128_1_0_0_1_n_n none (V c main_v49) (V c main_arg5)

theorem zero_offsets : (![0, 0] : Fin 2 → Nat) = fun _ => 0 := funext fun a => by fin_cases a <;> rfl

/-- The body's stored value at an entry of its block is the whole product's entry, when the block's row is the whole
    left operand's row and the weights agree. -/
theorem payload_at (X : FVec Ideal S100000x128 .f32) (W : FVec Ideal S128x128 .f32) (x0 : Vec Ideal S5000x128 .f32)
    (x1 : Vec Ideal S128x128 .f32) (y : S5000x128.Idx) (i : S100000x128.Idx)
    (h0 : ∀ k : Fin 128, x0 (ix2 (y 0) k) = X (ix2 (i 0) k)) (h1 : x1 = W) (hq : (i 1).val = (y 1).val) :
    k1_pay1 x0 x1 y
      = Host.dotGeneral (F := Ideal) Cert.ReferenceIdeal.dot_S100000x128_S128x128_S100000x128_1_0_0_1_n_n none X W i := by
  have hy : y = ix2 (y 0) (y 1) := eq_ix2 y
  have hi : i = ix2 (i 0) (y 1) := (eq_ix2 i).trans (congrArg (ix2 (i 0)) (Fin.ext hq))
  rw [hy, hi]
  unfold k1_pay1
  exact Cert.Products.rows_entry X W x1 (shapeCast S5000x128 x0 _) (y 0) (y 1) (i 0) (fun k => by rw [shapeCast_self]; exact h0 k) h1 _

/-- The printed index maps over the grid: windows 0 and 2 move down their arrays one block per point, the weight's
    window stays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := index_facts t
  funext y
  show k1_pay1 (iblk1 V c 0 t) (iblk1 V c 1 t) y = product V c (((cfg1.win 2).blk t).view.emb y)
  refine payload_at (V c main_v49) (V c main_arg5) (iblk1 V c 0 t) (iblk1 V c 1 t) y (((cfg1.win 2).blk t).view.emb y) ?_ ?_ ?_
  · intro k
    show V c main_v49 (((cfg1.win 0).blk t).view.emb (ix2 (y 0) k)) = V c main_v49 (ix2 ((((cfg1.win 2).blk t).view.emb y) 0) k)
    refine congrArg (V c main_v49) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * k.val = k.val; omega
  · funext z
    show V c main_arg5 (((cfg1.win 1).blk t).view.emb z) = V c main_arg5 z
    refine congrArg (V c main_arg5) (funext fun a => Fin.ext ?_)
    match a with
    | ⟨0, _⟩ => show win1_1.index t (0 : Fin 2) * 128 + 1 * (z 0).val = (z 0).val; omega
    | ⟨1, _⟩ => show win1_1.index t (1 : Fin 2) * 128 + 1 * (z 1).val = (z 1).val; omega
  · show win1_2.index t (1 : Fin 2) * 128 + 1 * (y 1).val = (y 1).val; omega

/-- An index of the output array is in point t's block iff each coordinate is in the block's range. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v50).slice (win1_2.rect t)).set ↔ _
  rw [View.set_slice_whole, Rect.mem_set_unit]
  exact Iff.rfl

/-- Row r of the output is in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  have ht : (i 0).val / 5000 < grid1.N := by rw [hN]; omega
  obtain ⟨e0, e1, e2, e3, e4, e5⟩ := index_facts ⟨(i 0).val / 5000, ht⟩
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val ∧ (i 1).val < win1_2.index ⟨(i 0).val / 5000, ht⟩ (1 : Fin 2) * 128 + 128
    rw [e5]; omega

/-- After the region its output array holds the whole product. -/
theorem output_eq (c : Dev nD) : (dat1 V c).arrAt 2 cfg1.N = product V c :=
  (dat1 V c).arrAt_eq_of_cover 2 (product V c) (fun t _ => flushed_eq V c t) cover

/-- After the region its input arrays hold what they held: an input window never writes back. -/
theorem input0_eq (c : Dev nD) : (dat1 V c).arrAt 0 cfg1.N = V c main_v49 :=
  ((dat1 V c).arrAt_in 0 rfl _).trans (A_eq1 V c 0)
theorem input1_eq (c : Dev nD) : (dat1 V c).arrAt 1 cfg1.N = V c main_arg5 :=
  ((dat1 V c).arrAt_in 1 rfl _).trans (A_eq1 V c 1)

end Cert.KernelIdeal.Linear2

end
-- ==== Proof.Head.lean ====
/-
  The classification head's pallas_call leaves the whole product in its output array. Its grid is one point, whose
  blocks are the whole arrays: the pooled features [512,128], the weight [128,2] and the output [512,2]. The point's
  stored product (operands rounded to bf16 — no change on the extended reals —, accumulated from zero, after a reshape
  of the left block to its own shape) is the whole product entry by entry (`Cert.Products.head_entry`).
  Stated for any contents `V` of the buffers at the region's entry; the two input arrays are not written.
-/
import proofs.«169838_j24103356465666_1_alg».proof.Proof.Gen.KernelIdeal.Frame
import proofs.«169838_j24103356465666_1_alg».proof.Proof.RowsProduct
import Idealize.ShloMosaic.Lib.Pipeline.Value

set_option maxRecDepth 16384

noncomputable section

namespace Cert.KernelIdeal.Head

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-- The whole product the region computes, of the two input arrays as the region finds them. -/
abbrev product (c : Dev nD) : FVec Ideal S512x2 .f32 :=
  Host.dotGeneral (F := Ideal) (φ₁ := .f32) (φ₂ := .f32) Cert.ReferenceIdeal.dot_S512x128_S128x2_S512x2_1_0_0_1_n_n none (V c main_v79) (V c main_arg7)

theorem zero_offsets : (![0, 0] : Fin 2 → Nat) = fun _ => 0 := funext fun a => by fin_cases a <;> rfl

/-- The body's stored value at an entry is the whole product's entry, when its blocks are the whole operands. -/
theorem payload_at (X : FVec Ideal S512x128 .f32) (W : FVec Ideal S128x2 .f32) (x0 : Vec Ideal S512x128 .f32)
    (x1 : Vec Ideal S128x2 .f32) (y i : S512x2.Idx) (h0 : x0 = X) (h1 : x1 = W) (hi : i = y) :
    k2_pay1 x0 x1 y
      = Host.dotGeneral (F := Ideal) Cert.ReferenceIdeal.dot_S512x128_S128x2_S512x2_1_0_0_1_n_n none X W i := by
  subst h0 h1 hi
  have hy : i = ix2 (i 0) (i 1) := eq_ix2 i
  rw [hy]
  unfold k2_pay1
  refine (Cert.Products.head_entry (shapeCast S512x128 x0 _) x1 (i 0) (i 1) _).trans ?_
  rw [shapeCast_self]
  rfl

/-- The printed index maps at the grid's one point: every block index is zero. -/
theorem index_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0 :=
  (by decide +kernel : ∀ t : Fin grid2.N, _)

/-- What the grid's point writes back is its block — the whole — of the product. -/
theorem flushed_eq (c : Dev nD) (t : Fin cfg2.N) :
    (dat2 V c).flushed 2 t = ((cfg2.win 2).blk t).view.read (Elt Ideal) (product V c) := by
  show (cfg2.win 2).cut (grid2.coords t) ((dat2 V c).after 2 t) = _
  rw [after2_2]
  unfold out2_2
  rw [View.canon_unit_zero zero_offsets]
  simp only [View.ld_unit_zero (S := S512x128) zero_offsets, View.ld_unit_zero (S := S128x2) zero_offsets]
  obtain ⟨e0, e1, e2, e3, e4, e5⟩ := index_facts t
  funext y
  show k2_pay1 (iblk2 V c 0 t) (iblk2 V c 1 t) y = product V c (((cfg2.win 2).blk t).view.emb y)
  refine payload_at (V c main_v79) (V c main_arg7) (iblk2 V c 0 t) (iblk2 V c 1 t) y (((cfg2.win 2).blk t).view.emb y) ?_ ?_ ?_
  · funext z
    show V c main_v79 (((cfg2.win 0).blk t).view.emb z) = V c main_v79 z
    refine congrArg (V c main_v79) (funext fun a => Fin.ext ?_)
    match a with
    | ⟨0, _⟩ => show win2_0.index t (0 : Fin 2) * 512 + 1 * (z 0).val = (z 0).val; omega
    | ⟨1, _⟩ => show win2_0.index t (1 : Fin 2) * 128 + 1 * (z 1).val = (z 1).val; omega
  · funext z
    show V c main_arg7 (((cfg2.win 1).blk t).view.emb z) = V c main_arg7 z
    refine congrArg (V c main_arg7) (funext fun a => Fin.ext ?_)
    match a with
    | ⟨0, _⟩ => show win2_1.index t (0 : Fin 2) * 128 + 1 * (z 0).val = (z 0).val; omega
    | ⟨1, _⟩ => show win2_1.index t (1 : Fin 2) * 2 + 1 * (z 1).val = (z 1).val; omega
  · funext a
    apply Fin.ext
    match a with
    | ⟨0, _⟩ => show win2_2.index t (0 : Fin 2) * 512 + 1 * (y 0).val = (y 0).val; omega
    | ⟨1, _⟩ => show win2_2.index t (1 : Fin 2) * 2 + 1 * (y 1).val = (y 1).val; omega

/-- An index of the output array is in the point's block iff each coordinate is in the block's range. -/
theorem mem_blk (t : Fin cfg2.N) (i : S512x2.Idx) :
    i ∈ ((cfg2.win 2).blk t).view.set ↔ ∀ a : Fin 2, win2_2.index t a * S512x2.size a ≤ (i a).val ∧ (i a).val < win2_2.index t a * S512x2.size a + S512x2.size a := by
  show i ∈ ((View.whole main_v80).slice (win2_2.rect t)).set ↔ _
  rw [View.set_slice_whole, Rect.mem_set_unit]
  exact Iff.rfl

/-- Every index of the output is in the one block. -/
theorem cover (i : S512x2.Idx) :
    ∃ t : Fin cfg2.N, (cfg2.win 2).flush t = true ∧ i ∈ ((cfg2.win 2).blk t).view.set := by
  have hi0 : (i 0).val < 512 := (i 0).isLt
  have hi1 : (i 1).val < 2 := (i 1).isLt
  obtain ⟨e0, e1, e2, e3, e4, e5⟩ := index_facts t2_0
  refine ⟨t2_0, flush2_2 _, ?_⟩
  rw [mem_blk]
  intro a
  match a with
  | ⟨0, _⟩ =>
    show win2_2.index t2_0 (0 : Fin 2) * 512 ≤ (i 0).val ∧ (i 0).val < win2_2.index t2_0 (0 : Fin 2) * 512 + 512
    rw [e4]; omega
  | ⟨1, _⟩ =>
    show win2_2.index t2_0 (1 : Fin 2) * 2 ≤ (i 1).val ∧ (i 1).val < win2_2.index t2_0 (1 : Fin 2) * 2 + 2
    rw [e5]; omega

/-- After the region its output array holds the whole product. -/
theorem output_eq (c : Dev nD) : (dat2 V c).arrAt 2 cfg2.N = product V c :=
  (dat2 V c).arrAt_eq_of_cover 2 (product V c) (fun t _ => flushed_eq V c t) cover

/-- After the region its input arrays hold what they held: an input window never writes back. -/
theorem input0_eq (c : Dev nD) : (dat2 V c).arrAt 0 cfg2.N = V c main_v79 :=
  ((dat2 V c).arrAt_in 0 rfl _).trans (A_eq2 V c 0)
theorem input1_eq (c : Dev nD) : (dat2 V c).arrAt 1 cfg2.N = V c main_arg7 :=
  ((dat2 V c).arrAt_in 1 rfl _).trans (A_eq2 V c 1)

end Cert.KernelIdeal.Head

end
-- ==== Proof.Fold.lean ====
/-
  On the buffers, each linear-layer region is one host matrix product. At a region's exit its output array holds the
  whole product of its two input arrays (the region's module), the input arrays hold what they held, and every other
  buffer is untouched — which is what the host operation "output := product of the inputs" leaves. So the buffer
  contents at the program's last boundary are those of a straight line of host operations run from the launch memory:
  the program's own host stretches with a host product in each region's place.
-/
import proofs.«169838_j24103356465666_1_alg».proof.Proof.Linear1
import proofs.«169838_j24103356465666_1_alg».proof.Proof.Linear2
import proofs.«169838_j24103356465666_1_alg».proof.Proof.Head
import Idealize.ShloMosaic.Lib.StableHlo.Run

set_option maxRecDepth 16384

noncomputable section

namespace Cert.KernelIdeal.Fold

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The host products standing for the three regions: x · W1, h · W2 and pooled · Wl. -/
abbrev product1 : HloOp τ sig (Elt Ideal) :=
  StableHlo.binary main_arg0 main_arg3 main_v32 ((fun l r => Host.dotGeneral (F := Ideal) (φ₁ := .f32) (φ₂ := .f32) Cert.ReferenceIdeal.dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal))
abbrev product2 : HloOp τ sig (Elt Ideal) :=
  StableHlo.binary main_v49 main_arg5 main_v50 ((fun l r => Host.dotGeneral (F := Ideal) (φ₁ := .f32) (φ₂ := .f32) Cert.ReferenceIdeal.dot_S100000x128_S128x128_S100000x128_1_0_0_1_n_n none l r) : (⟨S100000x128, .f32⟩ : BufTy).Contents (Elt Ideal) → (⟨S128x128, .f32⟩ : BufTy).Contents (Elt Ideal) → (⟨S100000x128, .f32⟩ : BufTy).Contents (Elt Ideal))
abbrev product3 : HloOp τ sig (Elt Ideal) :=
  StableHlo.binary main_v79 main_arg7 main_v80 ((fun l r => Host.dotGeneral (F := Ideal) (φ₁ := .f32) (φ₂ := .f32) Cert.ReferenceIdeal.dot_S512x128_S128x2_S512x2_1_0_0_1_n_n none l r) : (⟨S512x128, .f32⟩ : BufTy).Contents (Elt Ideal) → (⟨S128x2, .f32⟩ : BufTy).Contents (Elt Ideal) → (⟨S512x2, .f32⟩ : BufTy).Contents (Elt Ideal))

/-- Region 1 leaves each of its three arrays at what the host product leaves there. -/
theorem region1_at (c : Dev nD) : ∀ w : Fin cfg0.W,
    (dat0 (V3 m ρ) c).arrAt w cfg0.N = product1.result (W3 m ρ c) (Proc.devRef .tc (Pipeline.arrRef spec0 w))
  | ⟨0, _⟩ => by
    refine (Linear1.input0_eq (V3 m ρ) c).trans ?_
    show W3 m ρ c (Proc.devRef .tc main_arg0) = product1.result (W3 m ρ c) (Proc.devRef .tc main_arg0)
    rw [StableHlo.binary_result_ne]; rotate_left; decide
  | ⟨1, _⟩ => by
    refine (Linear1.input1_eq (V3 m ρ) c).trans ?_
    show W3 m ρ c (Proc.devRef .tc main_arg3) = product1.result (W3 m ρ c) (Proc.devRef .tc main_arg3)
    rw [StableHlo.binary_result_ne]; rotate_left; decide
  | ⟨2, _⟩ => by
    refine (Linear1.output_eq (V3 m ρ) c).trans ?_
    show Linear1.product (V3 m ρ) c = product1.result (W3 m ρ c) (Proc.devRef .tc main_v32)
    rw [StableHlo.binary_result]
  | ⟨_ + 3, h⟩ => absurd h (Nat.not_lt.2 (Nat.le_add_left _ _))

/-- The buffers at region 1's exit are those at its entry after the one host product. -/
theorem region1_eq (c : Dev nD) : W4 m ρ c = product1.result (W3 m ρ c) := by
  funext b
  by_cases h : ∃ w, Proc.devRef .tc (Pipeline.arrRef spec0 w) = b
  · obtain ⟨w, rfl⟩ := h
    exact (W4_arr m ρ c w).trans (region1_at m ρ c w)
  · have hb : b ∉ (product1).writes := fun hb => h ⟨2, (Finset.mem_singleton.mp hb).symm⟩
    rw [HloOp.result_of_not_mem _ _ hb]
    unfold W4 Pipeline.withArrays
    exact dif_neg h

/-- Region 2 leaves each of its three arrays at what the host product leaves there. -/
theorem region2_at (c : Dev nD) : ∀ w : Fin cfg1.W,
    (dat1 (V6 m ρ) c).arrAt w cfg1.N = product2.result (W6 m ρ c) (Proc.devRef .tc (Pipeline.arrRef spec1 w))
  | ⟨0, _⟩ => by
    refine (Linear2.input0_eq (V6 m ρ) c).trans ?_
    show W6 m ρ c (Proc.devRef .tc main_v49) = product2.result (W6 m ρ c) (Proc.devRef .tc main_v49)
    rw [StableHlo.binary_result_ne]; rotate_left; decide
  | ⟨1, _⟩ => by
    refine (Linear2.input1_eq (V6 m ρ) c).trans ?_
    show W6 m ρ c (Proc.devRef .tc main_arg5) = product2.result (W6 m ρ c) (Proc.devRef .tc main_arg5)
    rw [StableHlo.binary_result_ne]; rotate_left; decide
  | ⟨2, _⟩ => by
    refine (Linear2.output_eq (V6 m ρ) c).trans ?_
    show Linear2.product (V6 m ρ) c = product2.result (W6 m ρ c) (Proc.devRef .tc main_v50)
    rw [StableHlo.binary_result]
  | ⟨_ + 3, h⟩ => absurd h (Nat.not_lt.2 (Nat.le_add_left _ _))

/-- The buffers at region 2's exit are those at its entry after the one host product. -/
theorem region2_eq (c : Dev nD) : W7 m ρ c = product2.result (W6 m ρ c) := by
  funext b
  by_cases h : ∃ w, Proc.devRef .tc (Pipeline.arrRef spec1 w) = b
  · obtain ⟨w, rfl⟩ := h
    exact (W7_arr m ρ c w).trans (region2_at m ρ c w)
  · have hb : b ∉ (product2).writes := fun hb => h ⟨2, (Finset.mem_singleton.mp hb).symm⟩
    rw [HloOp.result_of_not_mem _ _ hb]
    unfold W7 Pipeline.withArrays
    exact dif_neg h

/-- Region 3 leaves each of its three arrays at what the host product leaves there. -/
theorem region3_at (c : Dev nD) : ∀ w : Fin cfg2.W,
    (dat2 (V10 m ρ) c).arrAt w cfg2.N = product3.result (W10 m ρ c) (Proc.devRef .tc (Pipeline.arrRef spec2 w))
  | ⟨0, _⟩ => by
    refine (Head.input0_eq (V10 m ρ) c).trans ?_
    show W10 m ρ c (Proc.devRef .tc main_v79) = product3.result (W10 m ρ c) (Proc.devRef .tc main_v79)
    rw [StableHlo.binary_result_ne]; rotate_left; decide
  | ⟨1, _⟩ => by
    refine (Head.input1_eq (V10 m ρ) c).trans ?_
    show W10 m ρ c (Proc.devRef .tc main_arg7) = product3.result (W10 m ρ c) (Proc.devRef .tc main_arg7)
    rw [StableHlo.binary_result_ne]; rotate_left; decide
  | ⟨2, _⟩ => by
    refine (Head.output_eq (V10 m ρ) c).trans ?_
    show Head.product (V10 m ρ) c = product3.result (W10 m ρ c) (Proc.devRef .tc main_v80)
    rw [StableHlo.binary_result]
  | ⟨_ + 3, h⟩ => absurd h (Nat.not_lt.2 (Nat.le_add_left _ _))

/-- The buffers at region 3's exit are those at its entry after the one host product. -/
theorem region3_eq (c : Dev nD) : W11 m ρ c = product3.result (W10 m ρ c) := by
  funext b
  by_cases h : ∃ w, Proc.devRef .tc (Pipeline.arrRef spec2 w) = b
  · obtain ⟨w, rfl⟩ := h
    exact (W11_arr m ρ c w).trans (region3_at m ρ c w)
  · have hb : b ∉ (product3).writes := fun hb => h ⟨2, (Finset.mem_singleton.mp hb).symm⟩
    rw [HloOp.result_of_not_mem _ _ hb]
    unfold W11 Pipeline.withArrays
    exact dif_neg h

/-- The buffers at the program's last boundary: the host stretches and the three products, run in order from the
    launch memory. -/
theorem last_eq (c : Dev nD) : W12 m ρ c =
    StableHlo.after hostOps3 (product3.result (StableHlo.after hostOps2_2 (StableHlo.after hostOps2_1 (StableHlo.after hostOps2
      (product2.result (StableHlo.after hostOps1_1 (StableHlo.after hostOps1 (product1.result
        (StableHlo.after hostOps0_2 (StableHlo.after hostOps0_1 (StableHlo.after hostOps0 (W0 m ρ c)))))))))))) := by
  show StableHlo.after hostOps3 (W11 m ρ c) = _
  rw [region3_eq]
  show StableHlo.after hostOps3 (product3.result (StableHlo.after hostOps2_2 (StableHlo.after hostOps2_1 (StableHlo.after hostOps2 (W7 m ρ c))))) = _
  rw [region2_eq]
  show StableHlo.after hostOps3 (product3.result (StableHlo.after hostOps2_2 (StableHlo.after hostOps2_1 (StableHlo.after hostOps2
      (product2.result (StableHlo.after hostOps1_1 (StableHlo.after hostOps1 (W4 m ρ c)))))))) = _
  rw [region1_eq]

end Cert.KernelIdeal.Fold

end
-- ==== Proof.Bridge.lean ====
/-
  The two programs compute one function of their arguments. The kernel program's buffers at its last boundary are a
  straight line of host operations run from the launch memory, with a host matrix product in each linear-layer
  region's place (`Cert.KernelIdeal.Fold.last_eq`); those operations are, one for one and in the same order, the
  reference program's: the degree normalisation, the two layers (product, gather, scale, segment sum, bias, relu), the
  mean pooling and the head. Read at the result buffer both lines compose to the same term of the argument arrays, so
  from memories that agree on the arguments the results are equal on the extended reals — no law of arithmetic is
  used, and finiteness of the inputs is not needed.
-/
import proofs.«169838_j24103356465666_1_alg».proof.Proof.Fold
import proofs.«169838_j24103356465666_1_alg».proof.Proof.RefRun

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Fold

/-- The operations of the three outlined functions (the `where` of the degree normalisation, the two `relu`s), read at
    their buffers' own types: the same operations, with no transport between a buffer's type and its value's. -/
theorem where_ops : (hostOps0_1 (F := Ideal)) =
    [ StableHlo.unary main_cst_3 main_call0_v0 (id : (⟨S_, .f32⟩ : BufTy).Contents (Elt Ideal) → (⟨S_, .f32⟩ : BufTy).Contents (Elt Ideal)),
      StableHlo.unary main_call0_v0 main_call0_v1 (broadcastInDim S100000 ![] Cert.KernelIdeal.Facts₀.bcast_S_S100000 : (⟨S_, .f32⟩ : BufTy).Contents (Elt Ideal) → (⟨S100000, .f32⟩ : BufTy).Contents (Elt Ideal)),
      StableHlo.ternary main_v12 main_v15 main_call0_v1 main_v16 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl
theorem relu1_ops : (hostOps1_1 (F := Ideal)) =
    [ StableHlo.nullary main_call1_cst (constant (F := Ideal) S_ .f32 0x00000000#32),
      StableHlo.unary main_call1_cst main_call1_v0 (broadcastInDim S100000x128 ![] Cert.KernelIdeal.Facts₀.bcast_S_S100000x128 : (⟨S_, .f32⟩ : BufTy).Contents (Elt Ideal) → (⟨S100000x128, .f32⟩ : BufTy).Contents (Elt Ideal)),
      StableHlo.binary main_v48 main_call1_v0 main_v49 (maximumf (F := Ideal) (s := S100000x128) (φ := .f32) : (⟨S100000x128, .f32⟩ : BufTy).Contents (Elt Ideal) → (⟨S100000x128, .f32⟩ : BufTy).Contents (Elt Ideal) → (⟨S100000x128, .f32⟩ : BufTy).Contents (Elt Ideal)) ] := rfl
theorem relu2_ops : (hostOps2_1 (F := Ideal)) =
    [ StableHlo.nullary main_call2_cst (constant (F := Ideal) S_ .f32 0x00000000#32),
      StableHlo.unary main_call2_cst main_call2_v0 (broadcastInDim S100000x128 ![] Cert.KernelIdeal.Facts₀.bcast_S_S100000x128 : (⟨S_, .f32⟩ : BufTy).Contents (Elt Ideal) → (⟨S100000x128, .f32⟩ : BufTy).Contents (Elt Ideal)),
      StableHlo.binary main_v66 main_call2_v0 main_v67 (maximumf (F := Ideal) (s := S100000x128) (φ := .f32) : (⟨S100000x128, .f32⟩ : BufTy).Contents (Elt Ideal) → (⟨S100000x128, .f32⟩ : BufTy).Contents (Elt Ideal) → (⟨S100000x128, .f32⟩ : BufTy).Contents (Elt Ideal)) ] := rfl

set_option maxHeartbeats 8000000 in
/-- The kernel program's result buffer at its last boundary holds the reference's composed term of the arguments, when
    the two memories agree on the arguments. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    W12 m ρ c (Proc.devRef .tc Cert.KernelIdeal.main_v83) = Cert.ReferenceIdeal.ValueP.res_main_v83 m' c := by
  rw [last_eq]
  unfold Cert.ReferenceIdeal.ValueP.res_main_v83
  rw [h0, h1, h2, h3, h4, h5, h6, h7, h8]
  rw [where_ops, relu1_ops, relu2_ops]
  dsimp only [hostOps0, hostOps0_2, hostOps1, hostOps2, hostOps2_2, hostOps3, product1, product2, product3]
  after_results_simp
  rfl

end Cert.Bridge

end
-- ==== Proof.lean ====
/-
  A two-layer graph convolution with mean pooling and a linear head, its three dense products computed by a
  row-blocked matrix kernel, against the same network with plain matrix products.

  Both programs normalise the graph (self loops added, deg = segment sum of ones over the targets, dis = rsqrt of
  max(deg, 1) where deg > 0 and 0 elsewhere, norm = dis[src] · dis[dst]), run two layers
  h ↦ relu(segment_sum((h · W)[src] · norm, dst) + b), average the rows of each graph (segment sums divided by
  max(count, 1)) and apply pooled · Wl + bl. They differ only in how the three products h · W are computed: the
  reference by one whole product each; the kernel program by a grid of 20 row blocks of 5000 rows (one block for the
  head), each block's product taken on the matrix unit from operands rounded to bf16 and accumulated from zero. On the
  extended reals the rounding is the identity and a block of rows of a product is the product of the block of rows, so
  each region leaves the whole product in its output array and acts on the buffers as the one host product
  (Proof/Linear1, Linear2, Head, Fold). The two programs are then the same straight line of operations on the same
  arguments (Proof/Bridge): their results are equal with no arithmetic law and no use of the inputs' finiteness.

  The frames of the two kernel programs are the generated ones; the reference's frame is its run with the result
  dropped. The idealization rewrote nothing, so there is nothing to preserve.
-/
import proofs.«169838_j24103356465666_1_alg».proof.Defs
import proofs.«169838_j24103356465666_1_alg».proof.Proof.Gen.Kernel
import proofs.«169838_j24103356465666_1_alg».proof.Proof.Gen.Kernel.Frame
import proofs.«169838_j24103356465666_1_alg».proof.Proof.Gen.KernelIdeal
import proofs.«169838_j24103356465666_1_alg».proof.Proof.Gen.KernelIdeal.Frame
import proofs.«169838_j24103356465666_1_alg».proof.Proof.Gen.ReferenceIdeal
import proofs.«169838_j24103356465666_1_alg».proof.Proof.Gen.Pre_finite_inputs
import proofs.«169838_j24103356465666_1_alg».proof.Proof.KernelRun
import proofs.«169838_j24103356465666_1_alg».proof.Proof.RefRun
import proofs.«169838_j24103356465666_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- From memories agreeing on the arguments both programs end with the same result: the kernel program's result buffer
    holds its last boundary's contents, which are the reference's composed term of the arguments. -/
theorem algebraic : Cert.algebraic_KernelIdeal_ReferenceIdeal := by
  intro m ρ m' ρ' _ hagree
  refine ⟨fun c => Cert.KernelIdeal.Gen.W12 m ρ c (Proc.devRef .tc Cert.KernelIdeal.main_v83),
    Cert.KernelIdeal.Result.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8⟩ := hagree c
  exact (Cert.Bridge.result_eq m ρ m' c h0 h1 h2 h3 h4 h5 h6 h7 h8).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
